-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4096 : Shape := ⟨2, ![1024, 4096]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x4096 .f32) (main_arg5 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S1024x4096 .f32) (main_arg4 : FVec F S1024x4096 .f32) (main_arg5 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Kernel.lean ====
abbrev S8192x1024 : Shape := ⟨2, ![8192, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S1x4096, .f32⟩
  | .hbm, ⟨7, _⟩ => ⟨S8192x1024, .f32⟩
  | .hbm, ⟨8, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .f32⟩
  | .local _ .vmem, ⟨7, _⟩ => ⟨S1024x4096, .f32⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .f32 = 32 ∨ (Rect.block (s := S1024x4096) S1024x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .f32 = 32 ∨ (Rect.block (s := S1024x4096) S1024x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_cst_8 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_cst_10 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Cell.lean ====
/-
  One step of an LSTM cell over the extended reals, as ONE function of its six arrays.

  For a batch row with input features `xr`, previous hidden state `hr` (1024 entries each), input weights `K` and
  recurrent weights `RK` (1024 × 4096) and bias `b` (4096 entries), the row's 4096 preactivations are
      z q = (Σₖ xr k · K k q  +  Σₖ hr k · RK k q) + b q.
  Unit `j` of the row reads four of them: column `j` (input gate), `j + 1024` (forget gate), `j + 2048` (candidate)
  and `j + 3072` (output gate). With σ the hard sigmoid `min 1 (max 0 (0.2·v + 0.5))` — the literal `0.2` kept as the
  binary word both programs spell — the new cell state and the new hidden state are
      c' = σ(z_f) · c + σ(z_i) · tanh(z_c),        h' = σ(z_o) · tanh(c').
  No law of arithmetic is used anywhere below: both programs compute these very terms, in this very order.
-/
import Idealize.ShloMosaic.PureOps.Ideal.Laws
import Idealize.ShloMosaic.Lib.ValueIdx

noncomputable section

namespace Cert.LstmCell

open Idealize.ShloMosaic Idealize.ShloMosaic.ValueIdx

/-- The hard sigmoid `clip(0.2·v + 0.5, 0, 1)`, lower bound applied first; its four literals are the binary words
    `1.0`, `0.0`, `f32(0.2)` and `0.5`. -/
def hardSigmoid (v : EReal) : EReal :=
  min (Ideal.ofBits .f32 0x3F800000#32)
    (max (Ideal.ofBits .f32 0x00000000#32)
      (Ideal.ofBits .f32 0x3E4CCCCD#32 * v + Ideal.ofBits .f32 0x3F000000#32))

/-- Column of the input gate of unit `j` among a row's 4096 preactivations. -/
abbrev colI (j : Fin 1024) : Fin 4096 := ⟨j.val, by omega⟩
/-- Column of the forget gate of unit `j`. -/
abbrev colF (j : Fin 1024) : Fin 4096 := ⟨j.val + 1024, by omega⟩
/-- Column of the candidate of unit `j`. -/
abbrev colC (j : Fin 1024) : Fin 4096 := ⟨j.val + 2048, by omega⟩
/-- Column of the output gate of unit `j`. -/
abbrev colO (j : Fin 1024) : Fin 4096 := ⟨j.val + 3072, by omega⟩

/-- A row's preactivation at column `q`: the two inner products added, then the bias. -/
def preact (xr hr : Fin 1024 → EReal) (K RK : Fin 1024 → Fin 4096 → EReal) (b : Fin 4096 → EReal) (q : Fin 4096) : EReal :=
  (∑ k : Fin 1024, xr k * K k q + ∑ k : Fin 1024, hr k * RK k q) + b q

/-- The new cell state of unit `j` from the row's preactivations `z` and the unit's previous cell state. -/
def cellState (z : Fin 4096 → EReal) (cPrev : EReal) (j : Fin 1024) : EReal :=
  hardSigmoid (z (colF j)) * cPrev + hardSigmoid (z (colI j)) * Ideal.tanh (z (colC j))

/-- The new hidden state of unit `j`. -/
def hidden (z : Fin 4096 → EReal) (cPrev : EReal) (j : Fin 1024) : EReal :=
  hardSigmoid (z (colO j)) * Ideal.tanh (cellState z cPrev j)

/-- Batch × features (and batch × units): the inputs, both previous states, both results. -/
abbrev Acts : Shape := ⟨2, ![8192, 1024]⟩
/-- Features × gate columns: both weight matrices. -/
abbrev Wts : Shape := ⟨2, ![1024, 4096]⟩
/-- Gate columns: the bias. -/
abbrev Bias : Shape := ⟨1, ![4096]⟩

/-- Batch row `r`'s preactivations, from the whole arrays. -/
def rowPreact (x h : Acts.Idx → EReal) (K RK : Wts.Idx → EReal) (b : Bias.Idx → EReal) (r : Fin 8192) : Fin 4096 → EReal :=
  preact (fun k => x (ix2 r k)) (fun k => h (ix2 r k)) (fun k q => K (ix2 k q)) (fun k q => RK (ix2 k q)) (fun q => b (ix1 q))

/-- THE NEW CELL STATE as an array: entry `(r, j)` is unit `j`'s new cell state in batch row `r`. -/
def newCell (x h c : Acts.Idx → EReal) (K RK : Wts.Idx → EReal) (b : Bias.Idx → EReal) : Acts.Idx → EReal :=
  fun i => cellState (rowPreact x h K RK b (i 0)) (c i) (i 1)

/-- THE NEW HIDDEN STATE as an array. -/
def newHidden (x h c : Acts.Idx → EReal) (K RK : Wts.Idx → EReal) (b : Bias.Idx → EReal) : Acts.Idx → EReal :=
  fun i => hidden (rowPreact x h K RK b (i 0)) (c i) (i 1)

theorem newCell_ix2 (x h c : Acts.Idx → EReal) (K RK : Wts.Idx → EReal) (b : Bias.Idx → EReal) (r : Fin 8192) (j : Fin 1024) :
    newCell x h c K RK b (ix2 r j) = cellState (rowPreact x h K RK b r) (c (ix2 r j)) j := rfl

theorem newHidden_ix2 (x h c : Acts.Idx → EReal) (K RK : Wts.Idx → EReal) (b : Bias.Idx → EReal) (r : Fin 8192) (j : Fin 1024) :
    newHidden x h c K RK b (ix2 r j) = hidden (rowPreact x h K RK b r) (c (ix2 r j)) j := rfl

end Cert.LstmCell

end
-- ==== Proof.BlockCell.lean ====
/-
  What the kernel's body leaves in its two output blocks, entry by entry, at the extended reals.

  At one grid point the body holds six blocks: 256 rows of the inputs `X`, of the previous hidden state `H` and of the
  previous cell state `C`, both whole weight matrices `K`, `RK`, and the bias as one row `B` of 4096 entries. Its
  preactivation tile is the two matrix products into a zero accumulator, added, plus the bias row repeated down the 256
  rows: entry `(p, q)` is row `p`'s preactivation at column `q` (`preact_entry`). The two stored tiles read four column
  bands of it, 1024 columns apart, so entry `(p, j)` of them is unit `j`'s new cell state and new hidden state in block
  row `p` (`cell_entry`, `hidden_entry`).
-/
import proofs.«181440_j61924838474036_2_alg».proof.Proof.Gen.KernelIdeal.Skeleton
import proofs.«181440_j61924838474036_2_alg».proof.Proof.Cell
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.LstmCell

/-- A row index of the product is the left operand's row index. -/
theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl

/-- A column index of the product is the right operand's column index. -/
theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- THE MATRIX PRODUCT into a zero accumulator, at entry `(p, q)`: the inner product of row `p` of the left operand with
    column `q` of the right one. -/
theorem matmul_entry (A : FVec Ideal S256x1024 .f32) (W : FVec Ideal S1024x4096 .f32) (p : Fin 256) (q : Fin 4096) :
    FloatOps.matmul dot_S256x1024_S1024x4096_S256x4096_1_0_0_1_n_n none A W (constant S256x4096 .f32 0x00000000#32) (ix2 p q)
      = ∑ k : Fin 1024, A (ix2 p k) * W (ix2 k q) := by
  refine (Ideal.matmul_constant_zero_apply dot_S256x1024_S1024x4096_S256x4096_1_0_0_1_n_n none A W (ix2 p q)).trans ?_
  rw [← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p q) ((ValueIdx.contrEquiv1 dot_S256x1024_S1024x4096_S256x4096_1_0_0_1_n_n 1024 rfl rfl).symm k) = ix2 p k := funext fun a => Fin.ext (by
    match a with
    | ⟨0, _⟩ => exact lhs_row _ _
    | ⟨1, _⟩ => exact (dot_S256x1024_S1024x4096_S256x4096_1_0_0_1_n_n.lhsIdx_val_of_single rfl _ _).trans hk)
  have er : dot_S256x1024_S1024x4096_S256x4096_1_0_0_1_n_n.rhsIdx (ix2 p q) ((ValueIdx.contrEquiv1 dot_S256x1024_S1024x4096_S256x4096_1_0_0_1_n_n 1024 rfl rfl).symm k) = ix2 k q := funext fun a => Fin.ext (by
    match a with
    | ⟨0, _⟩ => exact (dot_S256x1024_S1024x4096_S256x4096_1_0_0_1_n_n.rhsIdx_val_of_single rfl _ _).trans hk
    | ⟨1, _⟩ => exact rhs_col _ _)
  rw [el, er]

variable (X H C : FVec Ideal S256x1024 .f32) (K RK : FVec Ideal S1024x4096 .f32) (B : FVec Ideal S1x4096 .f32)

/-- Block row `p`'s preactivations, from the six blocks the body holds. -/
def blockPreact (p : Fin 256) : Fin 4096 → EReal :=
  preact (fun k => X (ix2 p k)) (fun k => H (ix2 p k)) (fun k q => K (ix2 k q)) (fun k q => RK (ix2 k q))
    (fun q => B (ix2 (0 : Fin 1) q))

/-- THE PREACTIVATION TILE at entry `(p, q)`. -/
theorem preact_entry (p : Fin 256) (q : Fin 4096) :
    k0_pay3 (F := Ideal) X H K RK B (ix2 p q) = blockPreact X H K RK B p q := by
  unfold k0_pay3
  show (FloatOps.matmul dot_S256x1024_S1024x4096_S256x4096_1_0_0_1_n_n none X K (constant S256x4096 .f32 0x00000000#32) (ix2 p q)
      + FloatOps.matmul dot_S256x1024_S1024x4096_S256x4096_1_0_0_1_n_n none H RK (constant S256x4096 .f32 0x00000000#32) (ix2 p q))
      + broadcastTo S256x4096 (shapeCast S1x4096 B Facts₀.shapeCasts_S1x4096_S1x4096) Facts₀.broadcasts_S1x4096_S256x4096 (ix2 p q) = _
  refine congrArg₂ (· + ·) (congrArg₂ (· + ·) (matmul_entry X K p q) (matmul_entry H RK p q)) ?_
  refine (broadcastTo_1b_ab_apply _ _ p q).trans ?_
  exact congrFun (shapeCast_self B _) _

/-- A band of 1024 columns of the preactivation tile, starting at column `o`, read at `(p, j)`: the tile at column
    `j + o` of row `p`. -/
theorem band_entry (o : Nat) (h : S256x4096.Slices ![0, o] S256x1024) (p : Fin 256) (j : Fin 1024) (q : Fin 4096)
    (hq : q.val = j.val + o) :
    extractStridedSlice S256x1024 ![0, o] (k0_pay3 (F := Ideal) X H K RK B) h (ix2 p j) = blockPreact X H K RK B p q := by
  refine (slice2_axis1_apply o (k0_pay3 (F := Ideal) X H K RK B) h p j q (by omega)).trans ?_
  exact preact_entry X H K RK B p q

/-- THE STORED CELL-STATE TILE at entry `(p, j)`: unit `j`'s new cell state in block row `p`. -/
theorem cell_entry (p : Fin 256) (j : Fin 1024) :
    k0_pay1 (F := Ideal) (k0_pay4 (F := Ideal) X H K RK B) (k0_pay5 (F := Ideal) X H K RK B) (k0_pay6 (F := Ideal) X H K RK B) C (ix2 p j)
      = cellState (blockPreact X H K RK B p) (C (ix2 p j)) j := by
  unfold k0_pay1 k0_pay4 k0_pay5 k0_pay6
  show min (Ideal.ofBits .f32 0x3F800000#32) (max (Ideal.ofBits .f32 0x00000000#32)
        (Ideal.ofBits .f32 0x3E4CCCCD#32 * extractStridedSlice S256x1024 ![0, 1024] (k0_pay3 (F := Ideal) X H K RK B) Facts₀.slices_S256x4096_o0_1024_S256x1024 (ix2 p j)
          + Ideal.ofBits .f32 0x3F000000#32)) * C (ix2 p j)
      + min (Ideal.ofBits .f32 0x3F800000#32) (max (Ideal.ofBits .f32 0x00000000#32)
        (Ideal.ofBits .f32 0x3E4CCCCD#32 * extractStridedSlice S256x1024 ![0, 0] (k0_pay3 (F := Ideal) X H K RK B) Facts₀.slices_S256x4096_o0_0_S256x1024 (ix2 p j)
          + Ideal.ofBits .f32 0x3F000000#32))
        * Ideal.tanh (extractStridedSlice S256x1024 ![0, 2048] (k0_pay3 (F := Ideal) X H K RK B) Facts₀.slices_S256x4096_o0_2048_S256x1024 (ix2 p j)) = _
  rw [band_entry X H K RK B 1024 _ p j (colF j) rfl, band_entry X H K RK B 0 _ p j (colI j) rfl,
    band_entry X H K RK B 2048 _ p j (colC j) rfl]
  rfl

/-- THE STORED HIDDEN-STATE TILE at entry `(p, j)`: unit `j`'s new hidden state in block row `p`. -/
theorem hidden_entry (p : Fin 256) (j : Fin 1024) :
    k0_pay2 (F := Ideal) (k0_pay4 (F := Ideal) X H K RK B) (k0_pay5 (F := Ideal) X H K RK B) (k0_pay6 (F := Ideal) X H K RK B) (k0_pay7 (F := Ideal) X H K RK B) (Scalar.ofBits .f32 0x00000000#32) C (ix2 p j)
      = hidden (blockPreact X H K RK B p) (C (ix2 p j)) j := by
  unfold k0_pay2
  show min (Ideal.ofBits .f32 0x3F800000#32) (max (Ideal.ofBits .f32 0x00000000#32) (k0_pay7 (F := Ideal) X H K RK B (ix2 p j)))
      * Ideal.tanh (k0_pay1 (F := Ideal) (k0_pay4 (F := Ideal) X H K RK B) (k0_pay5 (F := Ideal) X H K RK B) (k0_pay6 (F := Ideal) X H K RK B) C (ix2 p j)) = _
  rw [cell_entry X H C K RK B p j]
  unfold k0_pay7
  show min (Ideal.ofBits .f32 0x3F800000#32) (max (Ideal.ofBits .f32 0x00000000#32)
        (Ideal.ofBits .f32 0x3E4CCCCD#32 * extractStridedSlice S256x1024 ![0, 3072] (k0_pay3 (F := Ideal) X H K RK B) Facts₀.slices_S256x4096_o0_3072_S256x1024 (ix2 p j)
          + Ideal.ofBits .f32 0x3F000000#32))
      * Ideal.tanh (cellState (blockPreact X H K RK B p) (C (ix2 p j)) j) = _
  rw [band_entry X H K RK B 3072 _ p j (colO j) rfl]
  rfl

end Cert.KernelIdeal.Block

end
-- ==== Proof.Arrays.lean ====
/-
  From blocks to whole arrays: after the kernel's run its two result arrays ARE the cell's new hidden state and new cell
  state of the argument arrays.

  The grid has 32 points. Point `t` fetches rows `256·t … 256·t + 255` of the inputs and of the two previous states, the
  whole of both weight matrices and the whole bias row, and writes back rows `256·t … 256·t + 255` of both results (the
  index maps, decided over the 32 points: `index_facts`). The bias reaches the kernel as the bias vector re-laid as one row
  of 4096 entries by a reshape before the launch (`biasRow`). An entry `(p, j)` that point `t` writes back depends only on
  batch row `256·t + p` of the three row-blocked arrays, so it is the cell's entry `(256·t + p, j)` of the whole arrays
  (`cell_of_blocks`, `hidden_of_blocks`, then `flushed6_eq`, `flushed7_eq`); row `r` is covered by point `r / 256`, so the
  32 blocks fill each result array (`covered`).
-/
import proofs.«181440_j61924838474036_2_alg».proof.Proof.Gen.KernelIdeal.Value
import proofs.«181440_j61924838474036_2_alg».proof.Proof.BlockCell
import Idealize.ShloMosaic.Lib.ValueLayout
import Idealize.ShloMosaic.Lib.StableHlo.Run
import Idealize.ShloMosaic.Lib.Pipeline.Value
import Idealize.ShloMosaic.Lib.Tactic

noncomputable section

namespace Cert.KernelIdeal.Arrays

open Cert.KernelIdeal Cert.KernelIdeal.Gen Cert.KernelIdeal.Value Idealize.ShloMosaic Idealize.ShloMosaic.TcCoe Idealize.SL.Sem
open Idealize.ShloMosaic.ValueIdx Cert.LstmCell
open Idealize.ShloMosaic.Pipeline (Dat)

/-! ## An entry a point writes is the cell's entry of the whole arrays -/

section Entries

variable (X H C : FVec Ideal S256x1024 .f32) (K RK : FVec Ideal S1024x4096 .f32) (B : FVec Ideal S1x4096 .f32)
  (x h cc : Acts.Idx → EReal) (k rk : Wts.Idx → EReal) (b : Bias.Idx → EReal) (s : Nat)
  (hX : ∀ (p : Fin 256) (f : Fin 1024) (r : Fin 8192), r.val = s * 256 + p.val → X (ix2 p f) = x (ix2 r f))
  (hH : ∀ (p : Fin 256) (f : Fin 1024) (r : Fin 8192), r.val = s * 256 + p.val → H (ix2 p f) = h (ix2 r f))
  (hC : ∀ (p : Fin 256) (f : Fin 1024) (r : Fin 8192), r.val = s * 256 + p.val → C (ix2 p f) = cc (ix2 r f))
  (hK : ∀ (f : Fin 1024) (q : Fin 4096), K (ix2 f q) = k (ix2 f q))
  (hRK : ∀ (f : Fin 1024) (q : Fin 4096), RK (ix2 f q) = rk (ix2 f q))
  (hB : ∀ q : Fin 4096, B (ix2 (0 : Fin 1) q) = b (ix1 q))

include hX hH hK hRK hB in
/-- Block row `p` of block `s` has batch row `256·s + p`'s preactivations. -/
theorem preact_of_blocks (p : Fin 256) (r : Fin 8192) (hr : r.val = s * 256 + p.val) :
    Block.blockPreact X H K RK B p = rowPreact x h k rk b r := by
  have eX : ∀ f : Fin 1024, X (ix2 p f) = x (ix2 r f) := fun f => hX p f r hr
  have eH : ∀ f : Fin 1024, H (ix2 p f) = h (ix2 r f) := fun f => hH p f r hr
  funext q
  unfold Block.blockPreact rowPreact preact
  simp only [eX, eH, hK, hRK, hB]

include hX hH hC hK hRK hB in
/-- The stored cell-state tile at `y` is the new cell state at the array index `i` over it. -/
theorem cell_of_blocks (y : S256x1024.Idx) (i : Acts.Idx) (hi0 : (i 0).val = s * 256 + (y 0).val) (hi1 : (i 1).val = (y 1).val) :
    k0_pay1 (F := Ideal) (k0_pay4 (F := Ideal) X H K RK B) (k0_pay5 (F := Ideal) X H K RK B) (k0_pay6 (F := Ideal) X H K RK B) C y
      = newCell x h cc k rk b i := by
  obtain ⟨p, j, rfl⟩ : ∃ (p : Fin 256) (j : Fin 1024), y = ix2 p j := ⟨y 0, y 1, eq_ix2 y⟩
  obtain ⟨r, j', rfl⟩ : ∃ (r : Fin 8192) (j' : Fin 1024), i = ix2 r j' := ⟨i 0, i 1, eq_ix2 i⟩
  obtain rfl : j' = j := Fin.ext hi1
  rw [Block.cell_entry X H C K RK B p j', newCell_ix2,
    preact_of_blocks X H K RK B x h k rk b s hX hH hK hRK hB p r hi0, hC p j' r hi0]

include hX hH hC hK hRK hB in
/-- The stored hidden-state tile at `y` is the new hidden state at the array index `i` over it. -/
theorem hidden_of_blocks (y : S256x1024.Idx) (i : Acts.Idx) (hi0 : (i 0).val = s * 256 + (y 0).val) (hi1 : (i 1).val = (y 1).val) :
    k0_pay2 (F := Ideal) (k0_pay4 (F := Ideal) X H K RK B) (k0_pay5 (F := Ideal) X H K RK B) (k0_pay6 (F := Ideal) X H K RK B)
        (k0_pay7 (F := Ideal) X H K RK B) (Scalar.ofBits .f32 0x00000000#32) C y
      = newHidden x h cc k rk b i := by
  obtain ⟨p, j, rfl⟩ : ∃ (p : Fin 256) (j : Fin 1024), y = ix2 p j := ⟨y 0, y 1, eq_ix2 y⟩
  obtain ⟨r, j', rfl⟩ : ∃ (r : Fin 8192) (j' : Fin 1024), i = ix2 r j' := ⟨i 0, i 1, eq_ix2 i⟩
  obtain rfl : j' = j := Fin.ext hi1
  rw [Block.hidden_entry X H C K RK B p j', newHidden_ix2,
    preact_of_blocks X H K RK B x h k rk b s hX hH hK hRK hB p r hi0, hC p j' r hi0]

end Entries

variable (m : (ℓ : Loc nD τ sig) → Buf (Elt Ideal) ℓ) (ρ : Dev nD → PrngReg)

/-! ## The index maps, and each window's block as part of its array -/

theorem zeroOffsets : (![0, 0] : Fin 2 → Nat) = fun _ => 0 := funext fun a => by fin_cases a <;> rfl

/-- The printed index maps, decided over the 32 grid points: the three row-blocked inputs and both outputs are at block
    `(t, 0)`, the weights and the bias row at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The inputs' block: entry `(p, f)` of the block at point `t` is entry `(256·t + p, f)` of the array. -/
theorem inputs_block (c : Dev nD) (t : Fin cfg0.N) (p : Fin 256) (f : Fin 1024) (r : Fin 8192) (hr : r.val = t.val * 256 + p.val) :
    (iblk m c 0 t : Vec Ideal S256x1024 .f32) (ix2 p f) = (V m c main_arg0 : S8192x1024.Idx → EReal) (ix2 r f) := by
  have e0 : win0_0.index t (0 : Fin 2) = t.val := (index_facts t).1
  have e1 : win0_0.index t (1 : Fin 2) = 0 := (index_facts t).2.1
  unfold iblk
  rw [View.read_apply]
  show V m c main_arg0 _ = V m c main_arg0 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 1024 + 1 * f.val = f.val; rw [e1]; omega

/-- The previous hidden state's block: entry `(p, f)` of the block at point `t` is entry `(256·t + p, f)` of the array. -/
theorem prevHidden_block (c : Dev nD) (t : Fin cfg0.N) (p : Fin 256) (f : Fin 1024) (r : Fin 8192) (hr : r.val = t.val * 256 + p.val) :
    (iblk m c 1 t : Vec Ideal S256x1024 .f32) (ix2 p f) = (V m c main_arg1 : S8192x1024.Idx → EReal) (ix2 r f) := by
  have e0 : win0_1.index t (0 : Fin 2) = t.val := (index_facts t).2.2.1
  have e1 : win0_1.index t (1 : Fin 2) = 0 := (index_facts t).2.2.2.1
  unfold iblk
  rw [View.read_apply]
  show V m c main_arg1 _ = V m c main_arg1 _
  congr 1
  funext a
  apply Fin.ext
  match a with
  | ⟨0, _⟩ => show win0_1.index t (0 : Fin 2) * 256 + 1 * p.val = r.val; rw [e0, hr]; omega
  | ⟨1, _⟩ => show win0_1.index t (1 : Fin 2) * 1024 + 1 * f.val = f.val; rw [e1]; omega

/-- The previous cell state's block: entry `(p, f)` of the block at point `t` is entry `(256·t + p, f)` of the array. -/
theorem prevCell_block (c : Dev nD) (t : Fin cfg0.N) (p : Fin 256) (f : Fin 1024) (r : Fin 8192) (hr : r.val = t.val * 256 + p.val) :
    (iblk m c 2 t : Vec Ideal S256x1024 .f32) (ix2 p f) = (V m c main_arg2 : S8192x1024.Idx → EReal) (ix2 r f) := by
  have e0 : win0_2.index t (0 : Fin 2) = t.val := (index_facts t).2.2.2.2.1
  have e1 : win0_2.index t (1 : Fin 2) = 0 := (index_facts t).2.2.2.2.2.1
  unfold iblk
  rw [View.read_apply]
  show V m c main_arg2 _ = V m c main_arg2 _
  congr 1
  funext a
  apply Fin.ext
  match a with
  | ⟨0, _⟩ => show win0_2.index t (0 : Fin 2) * 256 + 1 * p.val = r.val; rw [e0, hr]; omega
  | ⟨1, _⟩ => show win0_2.index t (1 : Fin 2) * 1024 + 1 * f.val = f.val; rw [e1]; omega

/-- The input weights' block: the one block is the whole matrix. -/
theorem weights_block (c : Dev nD) (t : Fin cfg0.N) (f : Fin 1024) (q : Fin 4096) :
    (iblk m c 3 t : Vec Ideal S1024x4096 .f32) (ix2 f q) = (V m c main_arg3 : S1024x4096.Idx → EReal) (ix2 f q) := by
  have e0 : win0_3.index t (0 : Fin 2) = 0 := (index_facts t).2.2.2.2.2.2.1
  have e1 : win0_3.index t (1 : Fin 2) = 0 := (index_facts t).2.2.2.2.2.2.2.1
  unfold iblk
  rw [View.read_apply]
  show V m c main_arg3 _ = V m c main_arg3 _
  congr 1
  funext a
  apply Fin.ext
  match a with
  | ⟨0, _⟩ => show win0_3.index t (0 : Fin 2) * 1024 + 1 * f.val = f.val; rw [e0]; omega
  | ⟨1, _⟩ => show win0_3.index t (1 : Fin 2) * 4096 + 1 * q.val = q.val; rw [e1]; omega

/-- The recurrent weights' block: the one block is the whole matrix. -/
theorem recWeights_block (c : Dev nD) (t : Fin cfg0.N) (f : Fin 1024) (q : Fin 4096) :
    (iblk m c 4 t : Vec Ideal S1024x4096 .f32) (ix2 f q) = (V m c main_arg4 : S1024x4096.Idx → EReal) (ix2 f q) := by
  have e0 : win0_4.index t (0 : Fin 2) = 0 := (index_facts t).2.2.2.2.2.2.2.2.1
  have e1 : win0_4.index t (1 : Fin 2) = 0 := (index_facts t).2.2.2.2.2.2.2.2.2.1
  unfold iblk
  rw [View.read_apply]
  show V m c main_arg4 _ = V m c main_arg4 _
  congr 1
  funext a
  apply Fin.ext
  match a with
  | ⟨0, _⟩ => show win0_4.index t (0 : Fin 2) * 1024 + 1 * f.val = f.val; rw [e0]; omega
  | ⟨1, _⟩ => show win0_4.index t (1 : Fin 2) * 4096 + 1 * q.val = q.val; rw [e1]; omega

/-- The bias row's block: the one block is the whole row. -/
theorem biasRow_block (c : Dev nD) (t : Fin cfg0.N) (q : Fin 4096) :
    (iblk m c 5 t : Vec Ideal S1x4096 .f32) (ix2 (0 : Fin 1) q) = (V m c main_v0 : S1x4096.Idx → EReal) (ix2 (0 : Fin 1) q) := by
  have e0 : win0_5.index t (0 : Fin 2) = 0 := (index_facts t).2.2.2.2.2.2.2.2.2.2.1
  have e1 : win0_5.index t (1 : Fin 2) = 0 := (index_facts t).2.2.2.2.2.2.2.2.2.2.2.1
  unfold iblk
  rw [View.read_apply]
  show V m c main_v0 _ = V m c main_v0 _
  congr 1
  funext a
  apply Fin.ext
  match a with
  | ⟨0, _⟩ => show win0_5.index t (0 : Fin 2) * 1 + 1 * (0 : Fin 1).val = (0 : Fin 1).val; rw [e0]; omega
  | ⟨1, _⟩ => show win0_5.index t (1 : Fin 2) * 4096 + 1 * q.val = q.val; rw [e1]; omega

/-- The bias row the region finds is the bias vector re-laid as one row: the reshape before the launch. -/
theorem biasRow_eq (c : Dev nD) :
    (V m c main_v0 : S1x4096.Idx → EReal)
      = shapeCast S1x4096 (m ((c : Thread nD τ).loc main_arg5) : S4096.Idx → EReal) Facts₀.shapeCasts_S4096_S1x4096 := by
  dsimp only [V, hostOps0]
  after_results
  rfl

/-- Entry `q` of that row is entry `q` of the bias vector. -/
theorem biasRow (c : Dev nD) (q : Fin 4096) :
    (V m c main_v0 : S1x4096.Idx → EReal) (ix2 (0 : Fin 1) q) = (m ((c : Thread nD τ).loc main_arg5) : S4096.Idx → EReal) (ix1 q) := by
  rw [biasRow_eq]
  exact shapeCast_a_1a_apply _ _ 0 q

/-! ## What each point writes back -/

/-- The new hidden state of the arrays as the region finds them. -/
abbrev hiddenArr (c : Dev nD) : S8192x1024.Idx → EReal :=
  newHidden (V m c main_arg0) (V m c main_arg1) (V m c main_arg2) (V m c main_arg3) (V m c main_arg4) (m ((c : Thread nD τ).loc main_arg5))

/-- The new cell state of the arrays as the region finds them. -/
abbrev cellArr (c : Dev nD) : S8192x1024.Idx → EReal :=
  newCell (V m c main_arg0) (V m c main_arg1) (V m c main_arg2) (V m c main_arg3) (V m c main_arg4) (m ((c : Thread nD τ).loc main_arg5))

/-- WHAT POINT `t` WRITES BACK to the first result is rows `256·t … 256·t + 255` of the new hidden state. -/
theorem flushed6_eq (c : Dev nD) (t : Fin cfg0.N) :
    (dats m 0 c).flushed 6 t = ((cfg0.win 6).blk t).view.read (Elt Ideal) (hiddenArr m c) := by
  rw [flushed6]
  unfold out0_6
  rw [View.canon_unit_zero zeroOffsets]
  simp only [View.ld_unit_zero (S := S256x1024) zeroOffsets, View.ld_unit_zero (S := S1024x4096) zeroOffsets, View.ld_unit_zero (S := S1x4096) zeroOffsets]
  have e0 : win0_6.index t (0 : Fin 2) = t.val := (index_facts t).2.2.2.2.2.2.2.2.2.2.2.2.1
  have e1 : win0_6.index t (1 : Fin 2) = 0 := (index_facts t).2.2.2.2.2.2.2.2.2.2.2.2.2.1
  funext y
  have hy0 : (y 0).val < 256 := (y 0).isLt
  have hy1 : (y 1).val < 1024 := (y 1).isLt
  refine hidden_of_blocks (iblk m c 0 t) (iblk m c 1 t) (iblk m c 2 t) (iblk m c 3 t) (iblk m c 4 t) (iblk m c 5 t)
    (V m c main_arg0) (V m c main_arg1) (V m c main_arg2) (V m c main_arg3) (V m c main_arg4) (m ((c : Thread nD τ).loc main_arg5)) t.val
    (inputs_block m c t) (prevHidden_block m c t) (prevCell_block m c t) (weights_block m c t) (recWeights_block m c t)
    (fun q => (biasRow_block m c t q).trans (biasRow m c q)) y (((cfg0.win 6).blk t).view.emb y) ?_ ?_
  · show win0_6.index t (0 : Fin 2) * 256 + 1 * (y 0).val = t.val * 256 + (y 0).val; rw [e0]; omega
  · show win0_6.index t (1 : Fin 2) * 1024 + 1 * (y 1).val = (y 1).val; rw [e1]; omega

/-- WHAT POINT `t` WRITES BACK to the second result is rows `256·t … 256·t + 255` of the new cell state. -/
theorem flushed7_eq (c : Dev nD) (t : Fin cfg0.N) :
    (dats m 0 c).flushed 7 t = ((cfg0.win 7).blk t).view.read (Elt Ideal) (cellArr m c) := by
  rw [flushed7]
  unfold out0_7
  rw [View.canon_unit_zero zeroOffsets]
  simp only [View.ld_unit_zero (S := S256x1024) zeroOffsets, View.ld_unit_zero (S := S1024x4096) zeroOffsets, View.ld_unit_zero (S := S1x4096) zeroOffsets]
  have e0 : win0_7.index t (0 : Fin 2) = t.val := (index_facts t).2.2.2.2.2.2.2.2.2.2.2.2.2.2.1
  have e1 : win0_7.index t (1 : Fin 2) = 0 := (index_facts t).2.2.2.2.2.2.2.2.2.2.2.2.2.2.2
  funext y
  have hy0 : (y 0).val < 256 := (y 0).isLt
  have hy1 : (y 1).val < 1024 := (y 1).isLt
  refine cell_of_blocks (iblk m c 0 t) (iblk m c 1 t) (iblk m c 2 t) (iblk m c 3 t) (iblk m c 4 t) (iblk m c 5 t)
    (V m c main_arg0) (V m c main_arg1) (V m c main_arg2) (V m c main_arg3) (V m c main_arg4) (m ((c : Thread nD τ).loc main_arg5)) t.val
    (inputs_block m c t) (prevHidden_block m c t) (prevCell_block m c t) (weights_block m c t) (recWeights_block m c t)
    (fun q => (biasRow_block m c t q).trans (biasRow m c q)) y (((cfg0.win 7).blk t).view.emb y) ?_ ?_
  · show win0_7.index t (0 : Fin 2) * 256 + 1 * (y 0).val = t.val * 256 + (y 0).val; rw [e0]; omega
  · show win0_7.index t (1 : Fin 2) * 1024 + 1 * (y 1).val = (y 1).val; rw [e1]; omega

/-! ## The blocks fill the arrays -/

/-- An index of the first result is in point `t`'s block iff each coordinate is in the block's range on its axis. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v1_0).slice (win0_6.rect t)).set ↔ _
  rw [View.set_slice_whole, Rect.mem_set_unit]
  exact Iff.rfl

/-- The same for the second result. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v1_1).slice (win0_7.rect t)).set ↔ _
  rw [View.set_slice_whole, Rect.mem_set_unit]
  exact Iff.rfl

/-- The point whose block holds batch row `r`: `r / 256`. -/
def pointOf (i : S8192x1024.Idx) : Fin cfg0.N :=
  ⟨(i 0).val / 256, by have h0 : (i 0).val < 8192 := (i 0).isLt; rw [show cfg0.N = 32 from N_0]; omega⟩

theorem pointOf_val (i : S8192x1024.Idx) : (pointOf i).val = (i 0).val / 256 := rfl

/-- Every index of the first result is in the block of the point `(row) / 256`. -/
theorem covered6 (i : S8192x1024.Idx) : ∃ t : Fin cfg0.N, (cfg0.win 6).flush t = true ∧ i ∈ ((cfg0.win 6).blk t).view.set := by
  refine ⟨pointOf i, flush0_6 _, ?_⟩
  have h0 : (i 0).val < 8192 := (i 0).isLt
  have h1 : (i 1).val < 1024 := (i 1).isLt
  have e0 : win0_6.index (pointOf i) (0 : Fin 2) = (i 0).val / 256 := ((index_facts (pointOf i)).2.2.2.2.2.2.2.2.2.2.2.2.1).trans (pointOf_val i)
  have e1 : win0_6.index (pointOf i) (1 : Fin 2) = 0 := (index_facts (pointOf i)).2.2.2.2.2.2.2.2.2.2.2.2.2.1
  rw [mem_blk6]
  intro a
  match a with
  | ⟨0, _⟩ => show win0_6.index (pointOf i) (0 : Fin 2) * 256 ≤ (i 0).val ∧ (i 0).val < win0_6.index (pointOf i) (0 : Fin 2) * 256 + 256; rw [e0]; omega
  | ⟨1, _⟩ => show win0_6.index (pointOf i) (1 : Fin 2) * 1024 ≤ (i 1).val ∧ (i 1).val < win0_6.index (pointOf i) (1 : Fin 2) * 1024 + 1024; rw [e1]; omega

/-- Every index of the second result is in the block of the point `(row) / 256`. -/
theorem covered7 (i : S8192x1024.Idx) : ∃ t : Fin cfg0.N, (cfg0.win 7).flush t = true ∧ i ∈ ((cfg0.win 7).blk t).view.set := by
  refine ⟨pointOf i, flush0_7 _, ?_⟩
  have h0 : (i 0).val < 8192 := (i 0).isLt
  have h1 : (i 1).val < 1024 := (i 1).isLt
  have e0 : win0_7.index (pointOf i) (0 : Fin 2) = (i 0).val / 256 := ((index_facts (pointOf i)).2.2.2.2.2.2.2.2.2.2.2.2.2.2.1).trans (pointOf_val i)
  have e1 : win0_7.index (pointOf i) (1 : Fin 2) = 0 := (index_facts (pointOf i)).2.2.2.2.2.2.2.2.2.2.2.2.2.2.2
  rw [mem_blk7]
  intro a
  match a with
  | ⟨0, _⟩ => show win0_7.index (pointOf i) (0 : Fin 2) * 256 ≤ (i 0).val ∧ (i 0).val < win0_7.index (pointOf i) (0 : Fin 2) * 256 + 256; rw [e0]; omega
  | ⟨1, _⟩ => show win0_7.index (pointOf i) (1 : Fin 2) * 1024 ≤ (i 1).val ∧ (i 1).val < win0_7.index (pointOf i) (1 : Fin 2) * 1024 + 1024; rw [e1]; omega

/-! ## The arrays after the run, and the run -/

/-- The first result array after the run: the new hidden state of the argument arrays. -/
theorem final6 (c : Dev nD) : (dats m 0 c).arrAt 6 cfg0.N
    = newHidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [(dats m 0 c).arrAt_eq_of_cover 6 (hiddenArr m c) (fun t _ => flushed6_eq m c t) covered6]
  show newHidden (V m c main_arg0) (V m c main_arg1) (V m c main_arg2) (V m c main_arg3) (V m c main_arg4) _ = _
  rw [V_main_arg0, V_main_arg1, V_main_arg2, V_main_arg3, V_main_arg4]

/-- The second result array after the run: the new cell state of the argument arrays. -/
theorem final7 (c : Dev nD) : (dats m 0 c).arrAt 7 cfg0.N
    = newCell (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [(dats m 0 c).arrAt_eq_of_cover 7 (cellArr m c) (fun t _ => flushed7_eq m c t) covered7]
  show newCell (V m c main_arg0) (V m c main_arg1) (V m c main_arg2) (V m c main_arg3) (V m c main_arg4) _ = _
  rw [V_main_arg0, V_main_arg1, V_main_arg2, V_main_arg3, V_main_arg4]

/-- THE KERNEL'S RUN, READ: every weakly fair execution ends with the first result at the new hidden state and the
    second at the new cell state of the argument arrays, the arguments unchanged. -/
theorem run : θ_run defs (onTc (τ := τ) (main (F := Ideal))) ⟨m, fun _ => 0, ρ⟩ fun r => ∀ c : Dev nD,
      r.2.mem ((c : Thread nD τ).loc main_v1_0)
        = newHidden (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_v1_1)
        = newCell (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Cert.KernelIdeal.Value.run_blocks m ρ)

end Cert.KernelIdeal.Arrays

end
-- ==== Proof.RefCell.lean ====
/-
  The reference computes the cell's two arrays: each of its result terms, read at entry `(r, j)` one operation at a
  time, is the specification's term.

  The reference forms the whole preactivation array `Z = (X·K + H·RK) + bias` (the bias repeated down the rows), cuts it
  into four bands of 1024 columns, and applies the hard sigmoid to three of them as `min 1 (max 0 (0.2·v + 0.5))` and
  `tanh` to the third. Entry `(r, q)` of `Z` is batch row `r`'s preactivation at column `q` (`preact_ref`); a band at
  offset `o` read at `(r, j)` is `Z` at `(r, o + j)`.
-/
import proofs.«181440_j61924838474036_2_alg».proof.Proof.Gen.ReferenceIdeal.Read
import proofs.«181440_j61924838474036_2_alg».proof.Proof.Cell

noncomputable section

namespace Cert.ReferenceIdeal.RefCell

open Cert.ReferenceIdeal Cert.ReferenceIdeal.Read Idealize.ShloMosaic Idealize.ShloMosaic.ValueIdx Cert.LstmCell

variable (x0 x1 x2 : (⟨S8192x1024, .f32⟩ : BufTy).Contents (Elt Ideal)) (x3 x4 : (⟨S1024x4096, .f32⟩ : BufTy).Contents (Elt Ideal))
  (x5 : (⟨S4096, .f32⟩ : BufTy).Contents (Elt Ideal))

/-! ## Where each band reads the preactivation array -/

theorem bandI (r : Fin 8192) (j : Fin 1024) : idx_main_v6 (ix2 r j) = ix2 r (colI j) :=
  funext fun a => by match a with | ⟨0, _⟩ => rfl | ⟨1, _⟩ => rfl

theorem bandF (r : Fin 8192) (j : Fin 1024) : idx_main_v7 (ix2 r j) = ix2 r (colF j) :=
  funext fun a => by match a with | ⟨0, _⟩ => rfl | ⟨1, _⟩ => exact Fin.ext (Nat.add_comm _ _)

theorem bandC (r : Fin 8192) (j : Fin 1024) : idx_main_v8 (ix2 r j) = ix2 r (colC j) :=
  funext fun a => by match a with | ⟨0, _⟩ => rfl | ⟨1, _⟩ => exact Fin.ext (Nat.add_comm _ _)

theorem bandO (r : Fin 8192) (j : Fin 1024) : idx_main_v9 (ix2 r j) = ix2 r (colO j) :=
  funext fun a => by match a with | ⟨0, _⟩ => rfl | ⟨1, _⟩ => exact Fin.ext (Nat.add_comm _ _)

/-! ## The preactivation array -/

/-- ENTRY `(r, q)` OF THE PREACTIVATION ARRAY is batch row `r`'s preactivation at column `q`: each product an inner
    product over the 1024 features, the bias entry `q` whatever the row. -/
theorem preact_ref (r : Fin 8192) (q : Fin 4096) :
    val_main_v5 (F := Ideal) x0 x1 x3 x4 x5 (ix2 r q) = rowPreact x0 x1 x3 x4 x5 r q := by
  rw [val_main_v5_apply, val_main_v2_apply, val_main_v0_apply, val_main_v1_apply, val_main_v4_apply, val_main_v3_apply]
  have el0 : ∀ k : Fin 1024, lidx_main_v0 (ix2 r q) k = ix2 r k := fun k =>
    funext fun a => by match a with | ⟨0, _⟩ => rfl | ⟨1, _⟩ => rfl
  have er0 : ∀ k : Fin 1024, ridx_main_v0 (ix2 r q) k = ix2 k q := fun k =>
    funext fun a => by match a with | ⟨0, _⟩ => rfl | ⟨1, _⟩ => rfl
  have el1 : ∀ k : Fin 1024, lidx_main_v1 (ix2 r q) k = ix2 r k := fun k =>
    funext fun a => by match a with | ⟨0, _⟩ => rfl | ⟨1, _⟩ => rfl
  have er1 : ∀ k : Fin 1024, ridx_main_v1 (ix2 r q) k = ix2 k q := fun k =>
    funext fun a => by match a with | ⟨0, _⟩ => rfl | ⟨1, _⟩ => rfl
  have eb : idx_main_v3 (idx_main_v4 (ix2 r q)) = ix1 q :=
    funext fun a => by match a with | ⟨0, _⟩ => rfl
  simp only [el0, er0, el1, er1, eb]
  rfl

/-! ## The three gates and the candidate -/

/-- The input gate: the hard sigmoid of the first band. -/
theorem inputGate_ref (r : Fin 8192) (j : Fin 1024) :
    val_main_v14 (F := Ideal) x0 x1 x3 x4 x5 (ix2 r j) = hardSigmoid (rowPreact x0 x1 x3 x4 x5 r (colI j)) := by
  rw [val_main_v14_apply, val_main_call0_v2_apply, val_main_v13_apply, val_main_v11_apply, val_main_v6_apply, bandI,
    preact_ref, val_main_call0_v4_apply, val_main_call0_v3_apply, val_main_cst_2_apply, val_main_call0_v1_apply,
    val_main_call0_v0_apply, val_main_cst_1_apply, val_main_v10_apply, val_main_cst_apply, val_main_v12_apply,
    val_main_cst_0_apply]
  rfl

/-- The forget gate: the hard sigmoid of the second band. -/
theorem forgetGate_ref (r : Fin 8192) (j : Fin 1024) :
    val_main_v19 (F := Ideal) x0 x1 x3 x4 x5 (ix2 r j) = hardSigmoid (rowPreact x0 x1 x3 x4 x5 r (colF j)) := by
  rw [val_main_v19_apply, val_main_call1_v2_apply, val_main_v18_apply, val_main_v16_apply, val_main_v7_apply, bandF,
    preact_ref, val_main_call1_v4_apply, val_main_call1_v3_apply, val_main_cst_6_apply, val_main_call1_v1_apply,
    val_main_call1_v0_apply, val_main_cst_5_apply, val_main_v15_apply, val_main_cst_3_apply, val_main_v17_apply,
    val_main_cst_4_apply]
  rfl

/-- The output gate: the hard sigmoid of the fourth band. -/
theorem outputGate_ref (r : Fin 8192) (j : Fin 1024) :
    val_main_v28 (F := Ideal) x0 x1 x3 x4 x5 (ix2 r j) = hardSigmoid (rowPreact x0 x1 x3 x4 x5 r (colO j)) := by
  rw [val_main_v28_apply, val_main_call2_v2_apply, val_main_v27_apply, val_main_v25_apply, val_main_v9_apply, bandO,
    preact_ref, val_main_call2_v4_apply, val_main_call2_v3_apply, val_main_cst_10_apply, val_main_call2_v1_apply,
    val_main_call2_v0_apply, val_main_cst_9_apply, val_main_v24_apply, val_main_cst_7_apply, val_main_v26_apply,
    val_main_cst_8_apply]
  rfl

/-- The candidate: `tanh` of the third band. -/
theorem candidate_ref (r : Fin 8192) (j : Fin 1024) :
    val_main_v21 (F := Ideal) x0 x1 x3 x4 x5 (ix2 r j) = Ideal.tanh (rowPreact x0 x1 x3 x4 x5 r (colC j)) := by
  rw [val_main_v21_apply, val_main_v8_apply, bandC, preact_ref]
  rfl

/-! ## The two results -/

theorem cell_ref (r : Fin 8192) (j : Fin 1024) :
    val_main_v23 (F := Ideal) x0 x1 x2 x3 x4 x5 (ix2 r j) = cellState (rowPreact x0 x1 x3 x4 x5 r) (x2 (ix2 r j)) j := by
  rw [val_main_v23_apply, val_main_v20_apply, val_main_v22_apply, forgetGate_ref, inputGate_ref, candidate_ref]
  rfl

theorem hidden_ref (r : Fin 8192) (j : Fin 1024) :
    val_main_v30 (F := Ideal) x0 x1 x2 x3 x4 x5 (ix2 r j) = hidden (rowPreact x0 x1 x3 x4 x5 r) (x2 (ix2 r j)) j := by
  rw [val_main_v30_apply, val_main_v29_apply, outputGate_ref, cell_ref]
  rfl

/-- THE REFERENCE'S SECOND RESULT is the new cell state. -/
theorem cell_eq : val_main_v23 (F := Ideal) x0 x1 x2 x3 x4 x5 = newCell x0 x1 x2 x3 x4 x5 := by
  funext i
  obtain ⟨r, j, rfl⟩ : ∃ (r : Fin 8192) (j : Fin 1024), i = ix2 r j := ⟨i 0, i 1, eq_ix2 i⟩
  exact cell_ref x0 x1 x2 x3 x4 x5 r j

/-- THE REFERENCE'S FIRST RESULT is the new hidden state. -/
theorem hidden_eq : val_main_v30 (F := Ideal) x0 x1 x2 x3 x4 x5 = newHidden x0 x1 x2 x3 x4 x5 := by
  funext i
  obtain ⟨r, j, rfl⟩ : ∃ (r : Fin 8192) (j : Fin 1024), i = ix2 r j := ⟨i 0, i 1, eq_ix2 i⟩
  exact hidden_ref x0 x1 x2 x3 x4 x5 r j

end Cert.ReferenceIdeal.RefCell

end
-- ==== Proof.lean ====
/-
  An LSTM cell step as one Pallas kernel against its jnp reference, equal over the extended reals.

  Both programs take the inputs `X` and the previous hidden and cell states `H`, `C` (8192 × 1024 each), the input and
  recurrent weights `K`, `RK` (1024 × 4096) and the bias (4096), and return the new hidden state and the new cell state.
  With `Z = (X·K + H·RK) + bias`, cut into four bands of 1024 columns `Z_i, Z_f, Z_c, Z_o`, and σ the hard sigmoid
  `min 1 (max 0 (0.2·v + 0.5))`:
      C' = σ(Z_f) · C + σ(Z_i) · tanh(Z_c),        H' = σ(Z_o) · tanh(C')
  (Proof/Cell.lean: `newCell`, `newHidden`). The kernel works on 32 blocks of 256 batch rows with both weight matrices and
  the bias resident; an entry of `Z` depends on one batch row only, so the blocks' results are the rows of `C'` and `H'`
  (Proof/BlockCell.lean for one block, Proof/Arrays.lean for the 32 of them). The reference computes the same terms on
  the whole arrays (Proof/RefCell.lean). The two sides agree term by term — the same products, sums, literals and
  operand order — so no law of arithmetic and no finiteness of the inputs is used: the precondition is never opened.
  The kernel's idealization rewrote nothing, so what it preserves is trivially true.
-/
import proofs.«181440_j61924838474036_2_alg».proof.Defs
import proofs.«181440_j61924838474036_2_alg».proof.Proof.Gen.Kernel
import proofs.«181440_j61924838474036_2_alg».proof.Proof.Gen.Kernel.Skeleton
import proofs.«181440_j61924838474036_2_alg».proof.Proof.Gen.Kernel.Launch
import proofs.«181440_j61924838474036_2_alg».proof.Proof.Gen.Kernel.Points
import proofs.«181440_j61924838474036_2_alg».proof.Proof.Gen.Kernel.Frame
import proofs.«181440_j61924838474036_2_alg».proof.Proof.Gen.KernelIdeal
import proofs.«181440_j61924838474036_2_alg».proof.Proof.Gen.KernelIdeal.Skeleton
import proofs.«181440_j61924838474036_2_alg».proof.Proof.Gen.KernelIdeal.Launch
import proofs.«181440_j61924838474036_2_alg».proof.Proof.Gen.KernelIdeal.Points
import proofs.«181440_j61924838474036_2_alg».proof.Proof.Gen.KernelIdeal.Frame
import proofs.«181440_j61924838474036_2_alg».proof.Proof.Gen.ReferenceIdeal
import proofs.«181440_j61924838474036_2_alg».proof.Proof.Gen.Pre_finite_inputs
import proofs.«181440_j61924838474036_2_alg».proof.Proof.Gen.KernelIdeal.Value
import proofs.«181440_j61924838474036_2_alg».proof.Proof.Gen.ReferenceIdeal.Run
import proofs.«181440_j61924838474036_2_alg».proof.Proof.Gen.ReferenceIdeal.Read
import proofs.«181440_j61924838474036_2_alg».proof.Proof.Arrays
import proofs.«181440_j61924838474036_2_alg».proof.Proof.RefCell
import Idealize.ShloMosaic.Adequacy
import Idealize.ShloMosaic.Init

noncomputable section

namespace Cert.Proof

open Idealize.ShloMosaic Idealize.ShloMosaic.TcCoe Idealize.SL.Sem Cert.LstmCell

/-- The kernel as printed runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the six arguments both programs end with the new hidden state and the new cell state
    of those arguments: the kernel block by block, the reference on the whole arrays. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v30_eq, Cert.ReferenceIdeal.RefCell.hidden_eq, (hagree c).1, (hagree c).2.1,
      (hagree c).2.2.1, (hagree c).2.2.2.1, (hagree c).2.2.2.2.1, (hagree c).2.2.2.2.2]
  · rw [Cert.ReferenceIdeal.Read.val_main_v23_eq, Cert.ReferenceIdeal.RefCell.cell_eq, (hagree c).1, (hagree c).2.1,
      (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
